-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 60
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S256x256, .f32⟩
  | .hbm, ⟨38, _⟩ => ⟨S256x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S256x256, .f32⟩
  | .hbm, ⟨57, _⟩ => ⟨S256x256, .f32⟩
  | .hbm, ⟨58, _⟩ => ⟨S1x256, .f32⟩
  | .hbm, ⟨59, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S256x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S256x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S_, .f32⟩
  | .hbm, ⟨72, _⟩ => ⟨S800000, .f32⟩
  | .hbm, ⟨73, _⟩ => ⟨S_, .f32⟩
  | .hbm, ⟨74, _⟩ => ⟨S50000, .f32⟩
  | .hbm, ⟨75, _⟩ => ⟨S800000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S256x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S256x256, .f32⟩
  | .hbm, ⟨89, _⟩ => ⟨S50000x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x256, .f32⟩
  | .hbm, ⟨100, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run with its RESULT named. The program is two host stretches and two launches; at
  every boundary the contents of the unscoped buffers are a fold from the launch memory (`Gen.W0 … Gen.W4`), and the
  last one holds the result array at what the second launch's write-backs leave. The frame theorem keeps only the
  argument arrays of that last boundary; here the same launch is read once more keeping the result array too.
-/
import proofs.«120263_j46505905881800_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and the eight argument arrays end as launched. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  A two-layer mean-aggregation graph convolution with unit-length rows, as whole-array functions on the extended reals.

  One layer takes the aggregated neighbour features `mean` and the nodes' own features `x` (both 50000 × 256), two
  256 × 256 weight matrices `Wl`, `Wr` stored output-row first, and a bias `b`. Row `p` of its linear part is
      z(p, q) = ∑ₖ mean(p, k) · Wl(q, k) + ∑ₖ x(p, k) · Wr(q, k) + b(q),
  and the layer returns that row divided by the larger of its Euclidean length √(∑ⱼ z(p, j)²) and a fixed floor; the
  first layer also clamps every entry below at zero. Only the commutativity and associativity of the extended reals'
  addition are used to move the bias between the two matrix products, so nothing here asks the entries to be finite.
-/
import Idealize.ShloMosaic.PureOps.Ideal
import Idealize.ShloMosaic.Lib.ValueIdx

noncomputable section

namespace Cert.Sage

open Idealize.ShloMosaic Idealize.ShloMosaic.ValueIdx

/-- Node features: 50000 nodes, 256 channels. -/
abbrev Nodes : Shape := ⟨2, ![50000, 256]⟩
/-- A weight matrix, output channel first. -/
abbrev Wts : Shape := ⟨2, ![256, 256]⟩
/-- A bias vector. -/
abbrev Bias : Shape := ⟨1, ![256]⟩

/-- The floor under a row's length: the f32 word nearest 1e-12, read as the number it denotes. -/
abbrev floorLen : EReal := Ideal.ofBits .f32 0x2B8CBCCC#32

/-- The zero the first layer clamps at (the f32 zero word; it is never evaluated). -/
abbrev clampAt : EReal := Ideal.ofBits .f32 0x00000000#32

/-- The linear part at node `p`, channel `q`: neighbours through `Wl`, the node itself through `Wr`, then the bias. -/
def pre (mean x : FVec Ideal Nodes .f32) (Wl Wr : FVec Ideal Wts .f32) (b : FVec Ideal Bias .f32)
    (p : Fin 50000) (q : Fin 256) : EReal :=
  (∑ k : Fin 256, mean (ix2 p k) * Wl (ix2 q k) + ∑ k : Fin 256, x (ix2 p k) * Wr (ix2 q k)) + b (ix1 q)

/-- The same with the bias added before the node's own term: addition on the extended reals is commutative and
    associative, so the order of the three summands does not matter. -/
theorem pre_bias_first (mean x : FVec Ideal Nodes .f32) (Wl Wr : FVec Ideal Wts .f32) (b : FVec Ideal Bias .f32)
    (p : Fin 50000) (q : Fin 256) :
    (∑ k : Fin 256, mean (ix2 p k) * Wl (ix2 q k) + b (ix1 q)) + ∑ k : Fin 256, x (ix2 p k) * Wr (ix2 q k)
      = pre mean x Wl Wr b p q := by
  unfold pre
  exact add_right_comm _ _ _

/-- A row `z` scaled to unit length: each entry over the larger of √(∑ⱼ z(j)²) and the floor. -/
def unitRow (z : Fin 256 → EReal) (q : Fin 256) : EReal :=
  Ideal.div (z q) (max (Ideal.sqrt (∑ j : Fin 256, z j * z j)) floorLen)

/-- The second layer: every row of the linear part scaled to unit length. -/
def normed (mean x : FVec Ideal Nodes .f32) (Wl Wr : FVec Ideal Wts .f32) (b : FVec Ideal Bias .f32) :
    FVec Ideal Nodes .f32 :=
  fun i => unitRow (pre mean x Wl Wr b ⟨(i 0).val, (i 0).isLt⟩) ⟨(i 1).val, (i 1).isLt⟩

/-- The first layer: the same, then clamped below at zero. -/
def rectified (mean x : FVec Ideal Nodes .f32) (Wl Wr : FVec Ideal Wts .f32) (b : FVec Ideal Bias .f32) :
    FVec Ideal Nodes .f32 :=
  fun i => max (normed mean x Wl Wr b i) clampAt

theorem normed_ix2 (mean x : FVec Ideal Nodes .f32) (Wl Wr : FVec Ideal Wts .f32) (b : FVec Ideal Bias .f32)
    (p : Fin 50000) (q : Fin 256) :
    normed mean x Wl Wr b (ix2 p q) = unitRow (pre mean x Wl Wr b p) q := rfl

theorem rectified_ix2 (mean x : FVec Ideal Nodes .f32) (Wl Wr : FVec Ideal Wts .f32) (b : FVec Ideal Bias .f32)
    (p : Fin 50000) (q : Fin 256) :
    rectified mean x Wl Wr b (ix2 p q) = max (unitRow (pre mean x Wl Wr b p) q) clampAt := rfl

end Cert.Sage

end
-- ==== Proof.KernelSpec.lean ====
/-
  The same two layers in the form a launch sees its operands: each weight matrix already transposed (input channel
  first) and the bias as a single row. Row `p` of the linear part is then
      z(p, q) = ∑ₖ mean(p, k) · WlT(k, q) + ∑ₖ x(p, k) · WrT(k, q) + b2(0, q),
  which is the specification's `pre` once `WlT`, `WrT` are the transposes of `Wl`, `Wr` and `b2` the bias laid
  out as one row: a transposed matrix read at (k, q) is the matrix at (q, k).
-/
import proofs.«120263_j46505905881800_1_alg».proof.Proof.Spec
import Idealize.ShloMosaic.Lib.ValueLayout

noncomputable section

namespace Cert.Sage

open Idealize.ShloMosaic Idealize.ShloMosaic.ValueIdx

/-- The bias as one row. -/
abbrev BiasRow : Shape := ⟨2, ![1, 256]⟩

/-- The linear part over transposed weights and a one-row bias. -/
def preT (mean x : FVec Ideal Nodes .f32) (WlT WrT : FVec Ideal Wts .f32) (b2 : FVec Ideal BiasRow .f32)
    (p : Fin 50000) (q : Fin 256) : EReal :=
  (∑ k : Fin 256, mean (ix2 p k) * WlT (ix2 k q) + ∑ k : Fin 256, x (ix2 p k) * WrT (ix2 k q)) + b2 (ix2 (0 : Fin 1) q)

/-- Every row of that linear part scaled to unit length. -/
def normedT (mean x : FVec Ideal Nodes .f32) (WlT WrT : FVec Ideal Wts .f32) (b2 : FVec Ideal BiasRow .f32) :
    FVec Ideal Nodes .f32 :=
  fun i => unitRow (preT mean x WlT WrT b2 ⟨(i 0).val, (i 0).isLt⟩) ⟨(i 1).val, (i 1).isLt⟩

/-- The same, clamped below at zero. -/
def rectifiedT (mean x : FVec Ideal Nodes .f32) (WlT WrT : FVec Ideal Wts .f32) (b2 : FVec Ideal BiasRow .f32) :
    FVec Ideal Nodes .f32 :=
  fun i => max (normedT mean x WlT WrT b2 i) clampAt

theorem normedT_ix2 (mean x : FVec Ideal Nodes .f32) (WlT WrT : FVec Ideal Wts .f32) (b2 : FVec Ideal BiasRow .f32)
    (p : Fin 50000) (q : Fin 256) :
    normedT mean x WlT WrT b2 (ix2 p q) = unitRow (preT mean x WlT WrT b2 p) q := rfl

theorem rectifiedT_ix2 (mean x : FVec Ideal Nodes .f32) (WlT WrT : FVec Ideal Wts .f32) (b2 : FVec Ideal BiasRow .f32)
    (p : Fin 50000) (q : Fin 256) :
    rectifiedT mean x WlT WrT b2 (ix2 p q) = max (unitRow (preT mean x WlT WrT b2 p) q) clampAt := rfl

/-- Over the transposes of `Wl`, `Wr` and the bias as a row, the linear part is the specification's. -/
theorem preT_of_transposes (mean x : FVec Ideal Nodes .f32) (Wl Wr : FVec Ideal Wts .f32) (b : FVec Ideal Bias .f32)
    (hT : Wts.Transposes [1, 0] Wts) (hC : Bias.ShapeCasts BiasRow) :
    preT mean x (transpose Wts [1, 0] Wl hT) (transpose Wts [1, 0] Wr hT) (shapeCast BiasRow b hC)
      = pre mean x Wl Wr b := by
  funext p q
  unfold preT pre
  rw [shapeCast_a_1a_apply b hC (0 : Fin 1) q]
  refine congrArg (· + b (ix1 q)) (congrArg₂ (· + ·) ?_ ?_)
  · exact Finset.sum_congr rfl fun k _ => by rw [transpose_ix2_apply Wl hT k q]
  · exact Finset.sum_congr rfl fun k _ => by rw [transpose_ix2_apply Wr hT k q]

theorem normedT_of_transposes (mean x : FVec Ideal Nodes .f32) (Wl Wr : FVec Ideal Wts .f32) (b : FVec Ideal Bias .f32)
    (hT : Wts.Transposes [1, 0] Wts) (hC : Bias.ShapeCasts BiasRow) :
    normedT mean x (transpose Wts [1, 0] Wl hT) (transpose Wts [1, 0] Wr hT) (shapeCast BiasRow b hC)
      = normed mean x Wl Wr b := by
  unfold normedT normed
  rw [preT_of_transposes mean x Wl Wr b hT hC]

theorem rectifiedT_of_transposes (mean x : FVec Ideal Nodes .f32) (Wl Wr : FVec Ideal Wts .f32) (b : FVec Ideal Bias .f32)
    (hT : Wts.Transposes [1, 0] Wts) (hC : Bias.ShapeCasts BiasRow) :
    rectifiedT mean x (transpose Wts [1, 0] Wl hT) (transpose Wts [1, 0] Wr hT) (shapeCast BiasRow b hC)
      = rectified mean x Wl Wr b := by
  unfold rectifiedT rectified
  rw [normedT_of_transposes mean x Wl Wr b hT hC]

end Cert.Sage

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.Payload.lean ====
/-
  What one launch's body stores, read at an entry of its 2000 × 256 block.

  The body takes a block of aggregated features `a`, the same rows of the nodes' own features `x`, two transposed
  256 × 256 weight matrices `wl`, `wr` and the bias row `b`. With
      z(r, j) = ∑ₖ a(r, k) · wl(k, j) + ∑ₖ x(r, k) · wr(k, j) + b(0, j)
  it stores z(r, q) / max(√(∑ⱼ z(r, j)²), floor) — the first launch clamped below at zero. A change of float
  format is the identity on the extended reals, a matrix product into a zero accumulator is the plain sum over the
  contracted index, and a lane reduction is the plain sum over the row, so the stored entry is `unitRow` of row `r`.
-/
import proofs.«120263_j46505905881800_1_alg».proof.Proof.Gen.KernelIdeal.Skeleton
import proofs.«120263_j46505905881800_1_alg».proof.Proof.KernelSpec
import proofs.«120263_j46505905881800_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.Sage Cert.LibKeepdims

/-- Row `r`, column `j` of a block's linear part. -/
def rowT (a x : FVec Ideal S2000x256 .f32) (wl wr : FVec Ideal S256x256 .f32) (b : FVec Ideal S1x256 .f32)
    (r : Fin 2000) (j : Fin 256) : EReal :=
  (∑ k : Fin 256, a (ix2 r k) * wl (ix2 k j) + ∑ k : Fin 256, x (ix2 r k) * wr (ix2 k j)) + b (ix2 (0 : Fin 1) j)

/-- The left operand's index for output (i) and contracted index q keeps the output's row. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The right operand's index keeps the output's column. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block times a weight matrix, into a zero accumulator, at (r, j): the sum over the contracted index. -/
theorem matmul_at (A : FVec Ideal S2000x256 .bf16) (B : FVec Ideal S256x256 .bf16) (r : Fin 2000) (j : Fin 256) :
    matmul dot_S2000x256_S256x256_S2000x256_1_0_0_1_n_n none A B (constant (F := Ideal) S2000x256 .f32 0x00000000#32) (ix2 r j)
      = ∑ k : Fin 256, A (ix2 r k) * B (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs_row _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (dot_S2000x256_S256x256_S2000x256_1_0_0_1_n_n.rhsIdx_val_of_single rfl _ _).trans hk
    | ⟨1, _⟩ => exact rhs_col _ _)
  rw [el, er]

/-- A lane reduction of a block, at row r: the sum over the row. -/
theorem rowsum_at (S : FVec Ideal S2000x256 .f32) (r : Fin 2000) :
    multiReduction .add [1] S2000 S 0x00000000#32 reduces_S2000x256_S2000 (.inl rfl) rfl (ix1 r)
      = ∑ j : Fin 256, S (ix2 r j) := by
  refine (Ideal.multiReduction_add_single S 0x00000000#32 reduces_S2000x256_S2000 (.inl rfl) rfl (ix1 r)).trans ?_
  exact Finset.sum_congr rfl fun j _ => congrArg S (funext fun a => Fin.ext (by
    match a with
    | ⟨0, _⟩ => rfl
    | ⟨1, _⟩ => rfl))

/-- The block's linear part as the body computes it: two products into zero accumulators, added, plus the bias row
    repeated down the block. -/
def lin (a x : FVec Ideal S2000x256 .f32) (wl wr : FVec Ideal S256x256 .f32) (b : FVec Ideal S1x256 .f32) :
    FVec Ideal S2000x256 .f32 :=
  addf (addf (matmul dot_S2000x256_S256x256_S2000x256_1_0_0_1_n_n none (truncf .bf16 a bitsLt_bf16_f32) (truncf .bf16 wl bitsLt_bf16_f32) (constant (F := Ideal) S2000x256 .f32 0x00000000#32))
      (matmul dot_S2000x256_S256x256_S2000x256_1_0_0_1_n_n none (truncf .bf16 x bitsLt_bf16_f32) (truncf .bf16 wr bitsLt_bf16_f32) (constant (F := Ideal) S2000x256 .f32 0x00000000#32)))
    (broadcastTo S2000x256 b broadcasts_S1x256_S2000x256)

theorem lin_at (a x : FVec Ideal S2000x256 .f32) (wl wr : FVec Ideal S256x256 .f32) (b : FVec Ideal S1x256 .f32)
    (r : Fin 2000) (j : Fin 256) : lin a x wl wr b (ix2 r j) = rowT a x wl wr b r j := by
  unfold lin rowT
  rw [addf_apply, addf_apply, matmul_at, matmul_at, broadcastTo_1b_ab_apply]
  rfl

/-- A block with every row scaled to unit length, as the body computes it. -/
def unitBlock (z : FVec Ideal S2000x256 .f32) : FVec Ideal S2000x256 .f32 :=
  divf z (broadcastTo S2000x256
    (maximumf (sqrt (shapeCast S2000x1 (multiReduction .add [1] S2000 (mulf z z) 0x00000000#32 reduces_S2000x256_S2000 (.inl rfl) rfl) shapeCasts_S2000_S2000x1))
      (broadcast S2000x1 (Scalar.ofBits (F := Ideal) .f32 0x2B8CBCCC#32)))
    broadcasts_S2000x1_S2000x256)

theorem unitBlock_at (z : FVec Ideal S2000x256 .f32) (r : Fin 2000) (q : Fin 256) :
    unitBlock z (ix2 r q) = unitRow (fun j => z (ix2 r j)) q := by
  unfold unitBlock unitRow
  rw [divf_apply, broadcastTo_a1_ab_apply]
  show Ideal.div _ (max (Ideal.sqrt (shapeCast S2000x1 _ shapeCasts_S2000_S2000x1 (ix2 r (0 : Fin 1)))) (Ideal.ofBits .f32 0x2B8CBCCC#32)) = _
  rw [shapeCast_a_a1_apply, rowsum_at]
  rfl

/-- The first launch's stored block. -/
theorem pay0_eq (a x : FVec Ideal S2000x256 .f32) (wl wr : FVec Ideal S256x256 .f32) (b : FVec Ideal S1x256 .f32) :
    k0_pay1 (F := Ideal) a x wl wr b
      = maximumf (unitBlock (lin a x wl wr b)) (broadcast S2000x256 (Scalar.ofBits (F := Ideal) .f32 0x00000000#32)) := by
  unfold k0_pay1 lin unitBlock
  simp only [shapeCast_self]

/-- The second launch's stored block. -/
theorem pay1_eq (a x : FVec Ideal S2000x256 .f32) (wl wr : FVec Ideal S256x256 .f32) (b : FVec Ideal S1x256 .f32) :
    k1_pay1 (F := Ideal) a x wl wr b = unitBlock (lin a x wl wr b) := by
  unfold k1_pay1 lin unitBlock
  simp only [shapeCast_self]

/-- Entry (r, q) of the first launch's stored block: row r scaled to unit length, clamped below at zero. -/
theorem pay0_apply (a x : FVec Ideal S2000x256 .f32) (wl wr : FVec Ideal S256x256 .f32) (b : FVec Ideal S1x256 .f32)
    (r : Fin 2000) (q : Fin 256) :
    k0_pay1 (F := Ideal) a x wl wr b (ix2 r q) = max (unitRow (rowT a x wl wr b r) q) clampAt := by
  rw [pay0_eq]
  show max (unitBlock (lin a x wl wr b) (ix2 r q)) (Ideal.ofBits .f32 0x00000000#32) = _
  rw [unitBlock_at]
  simp only [lin_at]

/-- Entry (r, q) of the second launch's stored block: row r scaled to unit length. -/
theorem pay1_apply (a x : FVec Ideal S2000x256 .f32) (wl wr : FVec Ideal S256x256 .f32) (b : FVec Ideal S1x256 .f32)
    (r : Fin 2000) (q : Fin 256) :
    k1_pay1 (F := Ideal) a x wl wr b (ix2 r q) = unitRow (rowT a x wl wr b r) q := by
  rw [pay1_eq, unitBlock_at]
  simp only [lin_at]

end Cert.KernelIdeal.PayValue

end
-- ==== Proof.Blocks.lean ====
/-
  What each of the two launches leaves in its output array, for ANY contents `V` of the buffers at the launch's entry.

  A launch walks the 50000 rows in 25 blocks of 2000. At point t it reads rows 2000·t … 2000·t + 1999 of the
  aggregated features and of the nodes' own features, the two whole weight matrices and the bias row, and writes back
  the same rows of the output. A stored row depends only on the same row of the two feature arrays, so the block a
  point writes back is that block of ONE array-sized function — the layer `rectifiedT` (first launch) or `normedT`
  (second launch) of the entry arrays — and the 25 blocks tile the array: it ends holding that function.
-/
import proofs.«120263_j46505905881800_1_alg».proof.Proof.Gen.KernelIdeal.Frame
import proofs.«120263_j46505905881800_1_alg».proof.Proof.Payload
import Idealize.ShloMosaic.Lib.Pipeline.Value

set_option maxRecDepth 16384

noncomputable section

namespace Cert.KernelIdeal.BlockValue

open Cert.KernelIdeal Cert.KernelIdeal.Gen Cert.KernelIdeal.PayValue
open Idealize.ShloMosaic Idealize.ShloMosaic.TcCoe Idealize.SL.Sem Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of block T as a row of the whole array. -/
def rowOf (T : ℕ) (hT : T < 25) (r : Fin 2000) : Fin 50000 := ⟨2000 * T + r.val, by have := r.isLt; omega⟩

/-- A block's row of the linear part is the array's: the block's feature rows are the array's rows 2000·T + r, and
    its weights and bias are the whole operands. -/
theorem rows_eq (A X : FVec Ideal S50000x256 .f32) (WL WR : FVec Ideal S256x256 .f32) (B : FVec Ideal S1x256 .f32)
    (a x : FVec Ideal S2000x256 .f32) (wl wr : FVec Ideal S256x256 .f32) (b : FVec Ideal S1x256 .f32) (T : ℕ) (hT : T < 25)
    (ha : ∀ (r : Fin 2000) (k : Fin 256), a (ix2 r k) = A (ix2 (rowOf T hT r) k))
    (hx : ∀ (r : Fin 2000) (k : Fin 256), x (ix2 r k) = X (ix2 (rowOf T hT r) k))
    (hwl : ∀ (k j : Fin 256), wl (ix2 k j) = WL (ix2 k j)) (hwr : ∀ (k j : Fin 256), wr (ix2 k j) = WR (ix2 k j))
    (hb : ∀ j : Fin 256, b (ix2 (0 : Fin 1) j) = B (ix2 (0 : Fin 1) j)) (r : Fin 2000) :
    rowT a x wl wr b r = preT A X WL WR B (rowOf T hT r) := by
  funext j
  unfold rowT preT
  simp only [ha, hx, hwl, hwr, hb]

/-! ## Launch 0 -/

/-- Where launch 0's windows sit at grid point t: the two feature windows and the output window at row block t, the
    weights and the bias at their one block. Decided over the 25 points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated-feature block at point t is rows 2000·t … 2000·t + 1999 of its array. -/
theorem read0_0 (c : Dev nD) (t : Fin cfg0.N) (ht : t.val < 25) (r : Fin 2000) (k : Fin 256) :
    (iblk0 V c 0 t : FVec Ideal S2000x256 .f32) (ix2 r k)
      = (V c main_v22 : FVec Ideal S50000x256 .f32) (ix2 (rowOf t.val ht r) k) := by
  obtain ⟨e0, e1, -⟩ := idx0 t
  show (V c main_v22 : FVec Ideal S50000x256 .f32) (((cfg0.win 0).blk t).view.emb (ix2 r k)) = _
  refine congrArg _ (funext fun a => Fin.ext ?_)
  match a with
  | ⟨0, _⟩ => show win0_0.index t (0 : Fin 2) * 2000 + 1 * r.val = 2000 * t.val + r.val; omega
  | ⟨1, _⟩ => show win0_0.index t (1 : Fin 2) * 256 + 1 * k.val = k.val; omega

/-- The own-feature block at point t is the same rows of its array. -/
theorem read0_1 (c : Dev nD) (t : Fin cfg0.N) (ht : t.val < 25) (r : Fin 2000) (k : Fin 256) :
    (iblk0 V c 1 t : FVec Ideal S2000x256 .f32) (ix2 r k)
      = (V c main_arg0 : FVec Ideal S50000x256 .f32) (ix2 (rowOf t.val ht r) k) := by
  obtain ⟨-, -, e0, e1, -⟩ := idx0 t
  show (V c main_arg0 : FVec Ideal S50000x256 .f32) (((cfg0.win 1).blk t).view.emb (ix2 r k)) = _
  refine congrArg _ (funext fun a => Fin.ext ?_)
  match a with
  | ⟨0, _⟩ => show win0_1.index t (0 : Fin 2) * 2000 + 1 * r.val = 2000 * t.val + r.val; omega
  | ⟨1, _⟩ => show win0_1.index t (1 : Fin 2) * 256 + 1 * k.val = k.val; omega

/-- The first weight window's one block is the whole matrix. -/
theorem read0_2 (c : Dev nD) (t : Fin cfg0.N) (k j : Fin 256) :
    (iblk0 V c 2 t : FVec Ideal S256x256 .f32) (ix2 k j) = (V c main_v23 : FVec Ideal S256x256 .f32) (ix2 k j) := by
  obtain ⟨-, -, -, -, e0, e1, -⟩ := idx0 t
  show (V c main_v23 : FVec Ideal S256x256 .f32) (((cfg0.win 2).blk t).view.emb (ix2 k j)) = _
  refine congrArg _ (funext fun a => Fin.ext ?_)
  match a with
  | ⟨0, _⟩ => show win0_2.index t (0 : Fin 2) * 256 + 1 * k.val = k.val; omega
  | ⟨1, _⟩ => show win0_2.index t (1 : Fin 2) * 256 + 1 * j.val = j.val; omega

/-- The bias window's one block is the whole row. -/
theorem read0_3 (c : Dev nD) (t : Fin cfg0.N) (j : Fin 256) :
    (iblk0 V c 3 t : FVec Ideal S1x256 .f32) (ix2 (0 : Fin 1) j) = (V c main_v25 : FVec Ideal S1x256 .f32) (ix2 (0 : Fin 1) j) := by
  obtain ⟨-, -, -, -, -, -, e0, e1, -⟩ := idx0 t
  show (V c main_v25 : FVec Ideal S1x256 .f32) (((cfg0.win 3).blk t).view.emb (ix2 (0 : Fin 1) j)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 256 + 1 * j.val = j.val; omega

/-- The second weight window's one block is the whole matrix. -/
theorem read0_4 (c : Dev nD) (t : Fin cfg0.N) (k j : Fin 256) :
    (iblk0 V c 4 t : FVec Ideal S256x256 .f32) (ix2 k j) = (V c main_v24 : FVec Ideal S256x256 .f32) (ix2 k j) := by
  obtain ⟨-, -, -, -, -, -, -, -, e0, e1, -⟩ := idx0 t
  show (V c main_v24 : FVec Ideal S256x256 .f32) (((cfg0.win 4).blk t).view.emb (ix2 k j)) = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * j.val = j.val; omega

/-- What launch 0's output array ends holding: the layer over the arrays the launch finds at entry. -/
abbrev G0 (c : Dev nD) : FVec Ideal S50000x256 .f32 :=
  rectifiedT (V c main_v22) (V c main_arg0) (V c main_v23) (V c main_v24) (V c main_v25)

/-- What point t writes back is block t of that array-sized function: row r of the block is row 2000·t + r. -/
theorem flushed0 (c : Dev nD) (t : Fin cfg0.N) :
    (dat0 V c).flushed 5 t = ((cfg0.win 5).blk t).view.read (Elt Ideal) (G0 V c) := by
  have ht : t.val < 25 := lt_of_lt_of_eq t.isLt N_0
  obtain ⟨-, -, -, -, -, -, -, -, -, -, e10, e11⟩ := idx0 t
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  show (k0_pay1 (F := Ideal) (iblk0 V c 0 t) (iblk0 V c 1 t) (iblk0 V c 2 t) (iblk0 V c 4 t) (iblk0 V c 3 t) : FVec Ideal S2000x256 .f32)
      = fun y : S2000x256.Idx => G0 V c (((cfg0.win 5).blk t).view.emb y)
  funext y
  obtain ⟨r, q, rfl⟩ : ∃ (r : Fin 2000) (q : Fin 256), y = ix2 r q := ⟨y 0, y 1, eq_ix2 y⟩
  refine (pay0_apply (iblk0 V c 0 t) (iblk0 V c 1 t) (iblk0 V c 2 t) (iblk0 V c 4 t) (iblk0 V c 3 t) r q).trans ?_
  rw [rows_eq (V c main_v22) (V c main_arg0) (V c main_v23) (V c main_v24) (V c main_v25)
    (iblk0 V c 0 t) (iblk0 V c 1 t) (iblk0 V c 2 t) (iblk0 V c 4 t) (iblk0 V c 3 t) t.val ht
    (read0_0 V c t ht) (read0_1 V c t ht) (read0_2 V c t) (read0_4 V c t) (read0_3 V c t) r]
  refine (rectifiedT_ix2 (V c main_v22) (V c main_arg0) (V c main_v23) (V c main_v24) (V c main_v25) (rowOf t.val ht r) q).symm.trans ?_
  refine congrArg (G0 V c) (funext fun a => Fin.ext ?_)
  match a with
  | ⟨0, _⟩ => show 2000 * t.val + r.val = win0_5.index t (0 : Fin 2) * 2000 + 1 * r.val; omega
  | ⟨1, _⟩ => show q.val = win0_5.index t (1 : Fin 2) * 256 + 1 * q.val; omega

/-- An index of the array is in point t's output block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Every row of the array is in the output block of the point numbered by the row's block: the 25 blocks tile it. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < cfg0.N := by show (i 0).val / 2000 < grid0.N; rw [N_0]; omega
  obtain ⟨-, -, -, -, -, -, -, -, -, -, e10, e11⟩ := idx0 ⟨(i 0).val / 2000, hlt⟩
  have e10' : win0_5.index ⟨(i 0).val / 2000, hlt⟩ (0 : Fin 2) = (i 0).val / 2000 := e10
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e10']; omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e11]; omega

/-- After the launch's 25 write-backs the output array holds the layer of the entry arrays. -/
theorem final0 (c : Dev nD) : (dat0 V c).arrAt 5 cfg0.N = G0 V c :=
  (dat0 V c).arrAt_eq_of_cover 5 (G0 V c) (fun t _ => flushed0 V c t) cover0

/-! ## Launch 1 -/

/-- Where launch 1's windows sit at grid point t: the two feature windows and the output window at row block t, the
    weights and the bias at their one block. Decided over the 25 points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated-feature block at point t is rows 2000·t … 2000·t + 1999 of its array. -/
theorem read1_0 (c : Dev nD) (t : Fin cfg1.N) (ht : t.val < 25) (r : Fin 2000) (k : Fin 256) :
    (iblk1 V c 0 t : FVec Ideal S2000x256 .f32) (ix2 r k)
      = (V c main_v38 : FVec Ideal S50000x256 .f32) (ix2 (rowOf t.val ht r) k) := by
  obtain ⟨e0, e1, -⟩ := idx1 t
  show (V c main_v38 : FVec Ideal S50000x256 .f32) (((cfg1.win 0).blk t).view.emb (ix2 r k)) = _
  refine congrArg _ (funext fun a => Fin.ext ?_)
  match a with
  | ⟨0, _⟩ => show win1_0.index t (0 : Fin 2) * 2000 + 1 * r.val = 2000 * t.val + r.val; omega
  | ⟨1, _⟩ => show win1_0.index t (1 : Fin 2) * 256 + 1 * k.val = k.val; omega

/-- The own-feature block at point t is the same rows of its array. -/
theorem read1_1 (c : Dev nD) (t : Fin cfg1.N) (ht : t.val < 25) (r : Fin 2000) (k : Fin 256) :
    (iblk1 V c 1 t : FVec Ideal S2000x256 .f32) (ix2 r k)
      = (V c main_v26 : FVec Ideal S50000x256 .f32) (ix2 (rowOf t.val ht r) k) := by
  obtain ⟨-, -, e0, e1, -⟩ := idx1 t
  show (V c main_v26 : FVec Ideal S50000x256 .f32) (((cfg1.win 1).blk t).view.emb (ix2 r k)) = _
  refine congrArg _ (funext fun a => Fin.ext ?_)
  match a with
  | ⟨0, _⟩ => show win1_1.index t (0 : Fin 2) * 2000 + 1 * r.val = 2000 * t.val + r.val; omega
  | ⟨1, _⟩ => show win1_1.index t (1 : Fin 2) * 256 + 1 * k.val = k.val; omega

/-- The first weight window's one block is the whole matrix. -/
theorem read1_2 (c : Dev nD) (t : Fin cfg1.N) (k j : Fin 256) :
    (iblk1 V c 2 t : FVec Ideal S256x256 .f32) (ix2 k j) = (V c main_v39 : FVec Ideal S256x256 .f32) (ix2 k j) := by
  obtain ⟨-, -, -, -, e0, e1, -⟩ := idx1 t
  show (V c main_v39 : FVec Ideal S256x256 .f32) (((cfg1.win 2).blk t).view.emb (ix2 k j)) = _
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * j.val = j.val; omega

/-- The bias window's one block is the whole row. -/
theorem read1_3 (c : Dev nD) (t : Fin cfg1.N) (j : Fin 256) :
    (iblk1 V c 3 t : FVec Ideal S1x256 .f32) (ix2 (0 : Fin 1) j) = (V c main_v41 : FVec Ideal S1x256 .f32) (ix2 (0 : Fin 1) j) := by
  obtain ⟨-, -, -, -, -, -, e0, e1, -⟩ := idx1 t
  show (V c main_v41 : FVec Ideal S1x256 .f32) (((cfg1.win 3).blk t).view.emb (ix2 (0 : Fin 1) j)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 256 + 1 * j.val = j.val; omega

/-- The second weight window's one block is the whole matrix. -/
theorem read1_4 (c : Dev nD) (t : Fin cfg1.N) (k j : Fin 256) :
    (iblk1 V c 4 t : FVec Ideal S256x256 .f32) (ix2 k j) = (V c main_v40 : FVec Ideal S256x256 .f32) (ix2 k j) := by
  obtain ⟨-, -, -, -, -, -, -, -, e0, e1, -⟩ := idx1 t
  show (V c main_v40 : FVec Ideal S256x256 .f32) (((cfg1.win 4).blk t).view.emb (ix2 k j)) = _
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * j.val = j.val; omega

/-- What launch 1's output array ends holding: the layer over the arrays the launch finds at entry. -/
abbrev G1 (c : Dev nD) : FVec Ideal S50000x256 .f32 :=
  normedT (V c main_v38) (V c main_v26) (V c main_v39) (V c main_v40) (V c main_v41)

/-- What point t writes back is block t of that array-sized function: row r of the block is row 2000·t + r. -/
theorem flushed1 (c : Dev nD) (t : Fin cfg1.N) :
    (dat1 V c).flushed 5 t = ((cfg1.win 5).blk t).view.read (Elt Ideal) (G1 V c) := by
  have ht : t.val < 25 := lt_of_lt_of_eq t.isLt N_1
  obtain ⟨-, -, -, -, -, -, -, -, -, -, e10, e11⟩ := idx1 t
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  show (k1_pay1 (F := Ideal) (iblk1 V c 0 t) (iblk1 V c 1 t) (iblk1 V c 2 t) (iblk1 V c 4 t) (iblk1 V c 3 t) : FVec Ideal S2000x256 .f32)
      = fun y : S2000x256.Idx => G1 V c (((cfg1.win 5).blk t).view.emb y)
  funext y
  obtain ⟨r, q, rfl⟩ : ∃ (r : Fin 2000) (q : Fin 256), y = ix2 r q := ⟨y 0, y 1, eq_ix2 y⟩
  refine (pay1_apply (iblk1 V c 0 t) (iblk1 V c 1 t) (iblk1 V c 2 t) (iblk1 V c 4 t) (iblk1 V c 3 t) r q).trans ?_
  rw [rows_eq (V c main_v38) (V c main_v26) (V c main_v39) (V c main_v40) (V c main_v41)
    (iblk1 V c 0 t) (iblk1 V c 1 t) (iblk1 V c 2 t) (iblk1 V c 4 t) (iblk1 V c 3 t) t.val ht
    (read1_0 V c t ht) (read1_1 V c t ht) (read1_2 V c t) (read1_4 V c t) (read1_3 V c t) r]
  refine (normedT_ix2 (V c main_v38) (V c main_v26) (V c main_v39) (V c main_v40) (V c main_v41) (rowOf t.val ht r) q).symm.trans ?_
  refine congrArg (G1 V c) (funext fun a => Fin.ext ?_)
  match a with
  | ⟨0, _⟩ => show 2000 * t.val + r.val = win1_5.index t (0 : Fin 2) * 2000 + 1 * r.val; omega
  | ⟨1, _⟩ => show q.val = win1_5.index t (1 : Fin 2) * 256 + 1 * q.val; omega

/-- An index of the array is in point t's output block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v42).slice (win1_5.rect t)).set ↔ _
  rw [View.set_slice_whole, Rect.mem_set_unit]
  exact Iff.rfl

/-- Every row of the array is in the output block of the point numbered by the row's block: the 25 blocks tile it. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hlt : (i 0).val / 2000 < cfg1.N := by show (i 0).val / 2000 < grid1.N; rw [N_1]; omega
  obtain ⟨-, -, -, -, -, -, -, -, -, -, e10, e11⟩ := idx1 ⟨(i 0).val / 2000, hlt⟩
  have e10' : win1_5.index ⟨(i 0).val / 2000, hlt⟩ (0 : Fin 2) = (i 0).val / 2000 := e10
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e10']; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e11]; omega

/-- After the launch's 25 write-backs the output array holds the layer of the entry arrays. -/
theorem final1 (c : Dev nD) : (dat1 V c).arrAt 5 cfg1.N = G1 V c :=
  (dat1 V c).arrAt_eq_of_cover 5 (G1 V c) (fun t _ => flushed1 V c t) cover1

end Cert.KernelIdeal.BlockValue

end
-- ==== Proof.Host.lean ====
/-
  The host operations around the two launches, read as values.

  Before the first launch the host computes, from the edge list e (row 0 the sources, row 1 the destinations): the
  number of edges into each node, at least 1; the sum over each node's incoming edges of the source rows of the
  features, divided by that number — the mean of a node's neighbours (`aggK`); the two weight matrices transposed and
  the bias as one row. Between the launches it computes the same mean of the FIRST launch's result rows, and the second
  layer's transposed weights and bias row. The gather and the scatter-add are never opened: they are the same
  operations of the same operands on the reference's side.
-/
import proofs.«120263_j46505905881800_1_alg».proof.Proof.Gen.KernelIdeal.Frame
import proofs.«120263_j46505905881800_1_alg».proof.Proof.Spec
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Cert.Sage

/-- The edges' sources. -/
def srcK (e : IVec S2x800000 32) : IVec S800000 32 :=
  shapeCast _ (extractStridedSlice S1x800000 ![0, 0] e slices_S2x800000_S1x800000_0_0) shapeCasts_S1x800000_S800000

/-- The edges' destinations. -/
def dstK (e : IVec S2x800000 32) : IVec S800000 32 :=
  shapeCast _ (extractStridedSlice S1x800000 ![1, 0] e slices_S2x800000_S1x800000_1_0) shapeCasts_S1x800000_S800000

/-- Each node's number of incoming edges, at least one, as a column. -/
def cntK (e : IVec S2x800000 32) : FVec Ideal S50000x1 .f32 :=
  broadcastInDim S50000x1 ![0] bcast_S50000_S50000x1_0
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (dstK e))
        (broadcastInDim S800000 ![] bcast_S_S800000 (constant (F := Ideal) S_ .f32 0x3F800000#32)))
      (broadcastInDim S50000 ![] bcast_S_S50000 (constant (F := Ideal) S_ .f32 0x3F800000#32)))

/-- The sum of the source rows of h over each node's incoming edges, over the column of counts: the neighbours' mean
    for a given column of counts. -/
def aggWith (h : FVec Ideal S50000x256 .f32) (s d : IVec S800000 32) (n : FVec Ideal S50000x1 .f32) : FVec Ideal S50000x256 .f32 :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x256 ![0, 1] bcast_S50000x1_S50000x256_0_1 n)

/-- The mean of each node's neighbours' rows of h along the edge list e. -/
def aggK (h : FVec Ideal S50000x256 .f32) (e : IVec S2x800000 32) : FVec Ideal S50000x256 .f32 :=
  aggWith h (srcK e) (dstK e) (cntK e)

variable (m : (ℓ : Loc nD τ sig) → Buf (Elt Ideal) ℓ) (ρ : Dev nD → PrngReg)

/-! ## Before the first launch -/

theorem V1_mean (c : Dev nD) :
    (V1 m ρ c main_v22 : FVec Ideal S50000x256 .f32)
      = aggK (m ((c : Thread nD τ).loc main_arg0)) (m ((c : Thread nD τ).loc main_arg1)) := by
  show StableHlo.after hostOps0 (W0 m ρ c) (Proc.devRef .tc main_v22) = _
  unfold aggK aggWith srcK dstK cntK
  after_results_simp <;> rfl

theorem V1_x (c : Dev nD) :
    (V1 m ρ c main_arg0 : FVec Ideal S50000x256 .f32) = m ((c : Thread nD τ).loc main_arg0) := by
  show StableHlo.after hostOps0 (W0 m ρ c) (Proc.devRef .tc main_arg0) = _
  after_results <;> rfl

theorem V1_wl (c : Dev nD) :
    (V1 m ρ c main_v23 : FVec Ideal S256x256 .f32)
      = transpose S256x256 [1, 0] (m ((c : Thread nD τ).loc main_arg2)) transposes_S256x256_S256x256_1_0 := by
  show StableHlo.after hostOps0 (W0 m ρ c) (Proc.devRef .tc main_v23) = _
  after_results <;> rfl

theorem V1_wr (c : Dev nD) :
    (V1 m ρ c main_v24 : FVec Ideal S256x256 .f32)
      = transpose S256x256 [1, 0] (m ((c : Thread nD τ).loc main_arg4)) transposes_S256x256_S256x256_1_0 := by
  show StableHlo.after hostOps0 (W0 m ρ c) (Proc.devRef .tc main_v24) = _
  after_results <;> rfl

theorem V1_b (c : Dev nD) :
    (V1 m ρ c main_v25 : FVec Ideal S1x256 .f32)
      = shapeCast S1x256 (m ((c : Thread nD τ).loc main_arg3)) shapeCasts_S256_S1x256 := by
  show StableHlo.after hostOps0 (W0 m ρ c) (Proc.devRef .tc main_v25) = _
  after_results <;> rfl

/-! ## Between the launches -/

theorem W1_src (c : Dev nD) :
    (W1 m ρ c (Proc.devRef .tc main_v1) : IVec S800000 32) = srcK (m ((c : Thread nD τ).loc main_arg1)) := by
  show StableHlo.after hostOps0 (W0 m ρ c) (Proc.devRef .tc main_v1) = _
  after_results <;> rfl

theorem W1_dst (c : Dev nD) :
    (W1 m ρ c (Proc.devRef .tc main_v3) : IVec S800000 32) = dstK (m ((c : Thread nD τ).loc main_arg1)) := by
  show StableHlo.after hostOps0 (W0 m ρ c) (Proc.devRef .tc main_v3) = _
  after_results <;> rfl

theorem W1_cnt (c : Dev nD) :
    (W1 m ρ c (Proc.devRef .tc main_v10) : FVec Ideal S50000x1 .f32) = cntK (m ((c : Thread nD τ).loc main_arg1)) := by
  show StableHlo.after hostOps0 (W0 m ρ c) (Proc.devRef .tc main_v10) = _
  after_results <;> rfl

theorem W1_w2l (c : Dev nD) :
    (W1 m ρ c (Proc.devRef .tc main_arg5) : FVec Ideal S256x256 .f32) = m ((c : Thread nD τ).loc main_arg5) := by
  show StableHlo.after hostOps0 (W0 m ρ c) (Proc.devRef .tc main_arg5) = _
  after_results <;> rfl

theorem W1_b2 (c : Dev nD) :
    (W1 m ρ c (Proc.devRef .tc main_arg6) : FVec Ideal S256 .f32) = m ((c : Thread nD τ).loc main_arg6) := by
  show StableHlo.after hostOps0 (W0 m ρ c) (Proc.devRef .tc main_arg6) = _
  after_results <;> rfl

theorem W1_w2r (c : Dev nD) :
    (W1 m ρ c (Proc.devRef .tc main_arg7) : FVec Ideal S256x256 .f32) = m ((c : Thread nD τ).loc main_arg7) := by
  show StableHlo.after hostOps0 (W0 m ρ c) (Proc.devRef .tc main_arg7) = _
  after_results <;> rfl

/-- The first launch writes only its own output array: the edge columns, the counts and the second layer's parameters
    leave it as they entered. -/
theorem W2_src (c : Dev nD) :
    (W2 m ρ c (Proc.devRef .tc main_v1) : IVec S800000 32) = srcK (m ((c : Thread nD τ).loc main_arg1)) :=
  (W2_of_ne m ρ c main_v1 (by decide)).trans (W1_src m ρ c)

theorem W2_dst (c : Dev nD) :
    (W2 m ρ c (Proc.devRef .tc main_v3) : IVec S800000 32) = dstK (m ((c : Thread nD τ).loc main_arg1)) :=
  (W2_of_ne m ρ c main_v3 (by decide)).trans (W1_dst m ρ c)

theorem W2_cnt (c : Dev nD) :
    (W2 m ρ c (Proc.devRef .tc main_v10) : FVec Ideal S50000x1 .f32) = cntK (m ((c : Thread nD τ).loc main_arg1)) :=
  (W2_of_ne m ρ c main_v10 (by decide)).trans (W1_cnt m ρ c)

theorem W2_w2l (c : Dev nD) :
    (W2 m ρ c (Proc.devRef .tc main_arg5) : FVec Ideal S256x256 .f32) = m ((c : Thread nD τ).loc main_arg5) :=
  (W2_of_ne m ρ c main_arg5 (by decide)).trans (W1_w2l m ρ c)

theorem W2_b2 (c : Dev nD) :
    (W2 m ρ c (Proc.devRef .tc main_arg6) : FVec Ideal S256 .f32) = m ((c : Thread nD τ).loc main_arg6) :=
  (W2_of_ne m ρ c main_arg6 (by decide)).trans (W1_b2 m ρ c)

theorem W2_w2r (c : Dev nD) :
    (W2 m ρ c (Proc.devRef .tc main_arg7) : FVec Ideal S256x256 .f32) = m ((c : Thread nD τ).loc main_arg7) :=
  (W2_of_ne m ρ c main_arg7 (by decide)).trans (W1_w2r m ρ c)

/-- The second launch's aggregated features: the neighbours' mean of the first launch's result. -/
theorem V3_mean (c : Dev nD) :
    (V3 m ρ c main_v38 : FVec Ideal S50000x256 .f32)
      = aggK (W2 m ρ c (Proc.devRef .tc main_v26)) (m ((c : Thread nD τ).loc main_arg1)) := by
  have e : (V3 m ρ c main_v38 : FVec Ideal S50000x256 .f32)
      = aggWith (W2 m ρ c (Proc.devRef .tc main_v26)) (W2 m ρ c (Proc.devRef .tc main_v1)) (W2 m ρ c (Proc.devRef .tc main_v3)) (W2 m ρ c (Proc.devRef .tc main_v10)) := by
    show StableHlo.after hostOps1 (W2 m ρ c) (Proc.devRef .tc main_v38) = _
    unfold aggWith
    after_results_simp <;> rfl
  rw [e, W2_src, W2_dst, W2_cnt]
  rfl

theorem V3_h (c : Dev nD) :
    (V3 m ρ c main_v26 : FVec Ideal S50000x256 .f32) = W2 m ρ c (Proc.devRef .tc main_v26) := by
  show StableHlo.after hostOps1 (W2 m ρ c) (Proc.devRef .tc main_v26) = _
  after_results <;> rfl

theorem V3_wl (c : Dev nD) :
    (V3 m ρ c main_v39 : FVec Ideal S256x256 .f32)
      = transpose S256x256 [1, 0] (m ((c : Thread nD τ).loc main_arg5)) transposes_S256x256_S256x256_1_0 := by
  have e : (V3 m ρ c main_v39 : FVec Ideal S256x256 .f32)
      = transpose S256x256 [1, 0] (W2 m ρ c (Proc.devRef .tc main_arg5)) transposes_S256x256_S256x256_1_0 := by
    show StableHlo.after hostOps1 (W2 m ρ c) (Proc.devRef .tc main_v39) = _
    after_results <;> rfl
  rw [e, W2_w2l]

theorem V3_wr (c : Dev nD) :
    (V3 m ρ c main_v40 : FVec Ideal S256x256 .f32)
      = transpose S256x256 [1, 0] (m ((c : Thread nD τ).loc main_arg7)) transposes_S256x256_S256x256_1_0 := by
  have e : (V3 m ρ c main_v40 : FVec Ideal S256x256 .f32)
      = transpose S256x256 [1, 0] (W2 m ρ c (Proc.devRef .tc main_arg7)) transposes_S256x256_S256x256_1_0 := by
    show StableHlo.after hostOps1 (W2 m ρ c) (Proc.devRef .tc main_v40) = _
    after_results <;> rfl
  rw [e, W2_w2r]

theorem V3_b (c : Dev nD) :
    (V3 m ρ c main_v41 : FVec Ideal S1x256 .f32)
      = shapeCast S1x256 (m ((c : Thread nD τ).loc main_arg6)) shapeCasts_S256_S1x256 := by
  have e : (V3 m ρ c main_v41 : FVec Ideal S1x256 .f32)
      = shapeCast S1x256 (W2 m ρ c (Proc.devRef .tc main_arg6)) shapeCasts_S256_S1x256 := by
    show StableHlo.after hostOps1 (W2 m ρ c) (Proc.devRef .tc main_v41) = _
    after_results <;> rfl
  rw [e, W2_b2]

end Cert.KernelIdeal.HostValue

end
-- ==== Proof.KernelValue.lean ====
/-
  The idealized kernel program's result as one function of its arguments.

  Reading the boundaries of the run backwards: the result array is what the second launch leaves, the second layer
  (`normed`) of the neighbours' mean of h and of h itself, where h is what the first launch left, the first layer
  (`rectified`) of the neighbours' mean of the input features and of the features themselves; the weights reach the
  launches transposed and the biases as rows, which is how the launch-form layers read them.
-/
import proofs.«120263_j46505905881800_1_alg».proof.Proof.KernelRun
import proofs.«120263_j46505905881800_1_alg».proof.Proof.Blocks
import proofs.«120263_j46505905881800_1_alg».proof.Proof.Host

set_option maxRecDepth 16384

noncomputable section

namespace Cert.KernelIdeal.KernelValue

open Cert.KernelIdeal Cert.KernelIdeal.Gen Cert.KernelIdeal.HostValue Cert.KernelIdeal.BlockValue
open Idealize.ShloMosaic Idealize.ShloMosaic.TcCoe Idealize.SL.Sem Cert.Sage

/-- Two layers over the edge list e: the first layer's rows h, then the second layer of h and its neighbours' mean. -/
def twoLayers (x : FVec Ideal S50000x256 .f32) (e : IVec S2x800000 32)
    (W1l : FVec Ideal S256x256 .f32) (b1l : FVec Ideal S256 .f32) (W1r W2l : FVec Ideal S256x256 .f32)
    (b2l : FVec Ideal S256 .f32) (W2r : FVec Ideal S256x256 .f32) : FVec Ideal S50000x256 .f32 :=
  normed (aggK (rectified (aggK x e) x W1l W1r b1l) e) (rectified (aggK x e) x W1l W1r b1l) W2l W2r b2l

variable (m : (ℓ : Loc nD τ sig) → Buf (Elt Ideal) ℓ) (ρ : Dev nD → PrngReg)

/-- What the first launch leaves: the first layer of the arguments. -/
theorem first_layer (c : Dev nD) :
    (W2 m ρ c (Proc.devRef .tc main_v26) : FVec Ideal S50000x256 .f32)
      = rectified (aggK (m ((c : Thread nD τ).loc main_arg0)) (m ((c : Thread nD τ).loc main_arg1))) (m ((c : Thread nD τ).loc main_arg0))
          (m ((c : Thread nD τ).loc main_arg2)) (m ((c : Thread nD τ).loc main_arg4)) (m ((c : Thread nD τ).loc main_arg3)) := by
  refine (W2_arr m ρ c 5).trans ?_
  refine (final0 (V1 m ρ) c).trans ?_
  show rectifiedT (V1 m ρ c main_v22) (V1 m ρ c main_arg0) (V1 m ρ c main_v23) (V1 m ρ c main_v24) (V1 m ρ c main_v25) = _
  rw [V1_mean, V1_x, V1_wl, V1_wr, V1_b]
  exact rectifiedT_of_transposes _ _ _ _ _ transposes_S256x256_S256x256_1_0 shapeCasts_S256_S1x256

/-- What the second launch leaves: the two layers of the arguments. -/
theorem result_eq (c : Dev nD) :
    (W4 m ρ c (Proc.devRef .tc main_v42) : FVec Ideal S50000x256 .f32)
      = twoLayers (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  refine (final1 (V3 m ρ) c).trans ?_
  show normedT (V3 m ρ c main_v38) (V3 m ρ c main_v26) (V3 m ρ c main_v39) (V3 m ρ c main_v40) (V3 m ρ c main_v41) = _
  rw [V3_mean, V3_h, V3_wl, V3_wr, V3_b, first_layer]
  exact normedT_of_transposes _ _ _ _ _ transposes_S256x256_S256x256_1_0 shapeCasts_S256_S1x256

/-- Every weakly fair execution of the idealized kernel program terminates without a fault, with the result array at
    the two layers of the launch contents of the arguments, and the arguments unchanged. -/
theorem run : θ_run defs (onTc (τ := τ) (main (F := Ideal))) ⟨m, fun _ => 0, ρ⟩ (fun r => ∀ c : Dev nD,
      r.2.mem ((c.tc : Thread nD τ).loc main_v42)
        = twoLayers (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.RunValue.run (F := Ideal) m ρ)

end Cert.KernelIdeal.KernelValue

end
-- ==== Proof.RefValue.lean ====
/-
  The reference's result as the two-layer convolution of the specification.

  The reference computes, twice over, the mean of every node's neighbour rows (a gather along the edges' sources, a
  scatter-add into the edges' destinations, a division by the clamped neighbour count), two matrix products, a bias,
  the row's Euclidean length, and a division by the larger of that length and a fixed floor; between the two passes it
  clamps every entry below at zero. The gather and the scatter-add are never opened here: the mean is kept as one
  closed term `aggR h e` in the features `h` and the edge list `e`, and everything after it is read entry by entry.
-/
import proofs.«120263_j46505905881800_1_alg».proof.Proof.Gen.ReferenceIdeal.Read
import proofs.«120263_j46505905881800_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo Cert.Sage

/-- The mean of the neighbours' rows: row `d` of the result is the sum of the rows `h(s)` over the edges `s → d`
    (a negative source index counted from the end), divided by the larger of the number of such edges and one. -/
def aggR (h : FVec Ideal S50000x256 .f32) (e : IVec S2x800000 32) : FVec Ideal S50000x256 .f32 :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0
        (shapeCast _ (extractStridedSlice S1x800000 ![1, 0] e slices_S2x800000_S1x800000_1_0) shapeCasts_S1x800000_S800000))
      (Host.gather gather_S50000x256_S800000x1_S800000x256_1_0_n_n_0_1_1256 h
        (broadcastInDim S800000x1 ![0] bcast_S800000_S800000x1_0
          (select
            (cmpi .slt
              (shapeCast _ (extractStridedSlice S1x800000 ![0, 0] e slices_S2x800000_S1x800000_0_0) shapeCasts_S1x800000_S800000)
              (broadcastInDim S800000 ![] bcast_S_S800000 (constantI S_ 32 0#32)))
            (addi
              (shapeCast _ (extractStridedSlice S1x800000 ![0, 0] e slices_S2x800000_S1x800000_0_0) shapeCasts_S1x800000_S800000)
              (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x256 ![0, 1] bcast_S50000x1_S50000x256_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0
              (shapeCast _ (extractStridedSlice S1x800000 ![1, 0] e slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32)))))

theorem mean1_eq (x0 : FVec Ideal S50000x256 .f32) (x1 : IVec S2x800000 32) :
    val_main_v22 (F := Ideal) x0 x1 = aggR x0 x1 := by
  unfold aggR val_main_v22 val_main_v21 val_main_v20 val_main_v19 val_main_v18 val_main_cst_3 val_main_v17 val_main_v16
    val_main_v15 val_main_cst_2 val_main_v14 val_main_cst_1 val_main_v13 val_main_v12 val_main_v11 val_main_cst val_main_v10
    val_main_v9 val_main_v8 val_main_v7 val_main_v6 val_main_c_0 val_main_v5 val_main_v4 val_main_c val_main_v3 val_main_v2
    val_main_v1 val_main_v0
  rfl

theorem mean2_eq (x0 : FVec Ideal S50000x256 .f32) (x1 : IVec S2x800000 32) (x2 : FVec Ideal S256x256 .f32)
    (x3 : FVec Ideal S256 .f32) (x4 : FVec Ideal S256x256 .f32) :
    val_main_v55 (F := Ideal) x0 x1 x2 x3 x4 = aggR (val_main_v36 (F := Ideal) x0 x1 x2 x3 x4) x1 := by
  unfold aggR val_main_v55 val_main_v54 val_main_v53 val_main_v52 val_main_v51 val_main_cst_10 val_main_v50 val_main_v49
    val_main_v48 val_main_cst_9 val_main_v47 val_main_cst_8 val_main_v46 val_main_v45 val_main_v44 val_main_cst_7 val_main_v43
    val_main_v42 val_main_v41 val_main_v40 val_main_v39 val_main_c_6 val_main_v38 val_main_v37 val_main_c_5 val_main_v3
    val_main_v2 val_main_v1 val_main_v0
  rfl

/-! ### Layer 1: the index functions of the generated reading lemmas, at a node `p` and a channel `q` -/

section Layer1

variable (x0 : FVec Ideal S50000x256 .f32) (x1 : IVec S2x800000 32) (x2 : FVec Ideal S256x256 .f32)
  (x3 : FVec Ideal S256 .f32) (x4 : FVec Ideal S256x256 .f32)

theorem lidx24 (p : Fin 50000) (q k : Fin 256) : lidx_main_v24 (ix2 p q) k = ix2 p k :=
  funext fun a => Fin.ext (by match a with | ⟨0, _⟩ => rfl | ⟨1, _⟩ => rfl)

theorem ridx24 (p : Fin 50000) (q k : Fin 256) : idx_main_v23 (ridx_main_v24 (ix2 p q) k) = ix2 q k :=
  funext fun a => Fin.ext (by match a with | ⟨0, _⟩ => rfl | ⟨1, _⟩ => rfl)

theorem lidx29 (p : Fin 50000) (q k : Fin 256) : lidx_main_v29 (ix2 p q) k = ix2 p k :=
  funext fun a => Fin.ext (by match a with | ⟨0, _⟩ => rfl | ⟨1, _⟩ => rfl)

theorem ridx29 (p : Fin 50000) (q k : Fin 256) : idx_main_v28 (ridx_main_v29 (ix2 p q) k) = ix2 q k :=
  funext fun a => Fin.ext (by match a with | ⟨0, _⟩ => rfl | ⟨1, _⟩ => rfl)

theorem bidx26 (p : Fin 50000) (q : Fin 256) : idx_main_v25 (idx_main_v26 (ix2 p q)) = ix1 q :=
  funext fun a => Fin.ext (by match a with | ⟨0, _⟩ => rfl)

theorem nidx1 (p : Fin 50000) (q k : Fin 256) :
    idx_main_call0_v1 (idx_main_call0_v2 (idx_main_v34 (ix2 p q))) k = ix2 p k :=
  funext fun a => Fin.ext (by match a with | ⟨0, _⟩ => rfl | ⟨1, _⟩ => rfl)

/-- The linear part of layer 1 at node `p`, channel `q`. The reference adds the bias before the node's own term. -/
theorem lin1 (p : Fin 50000) (q : Fin 256) :
    val_main_v30 (F := Ideal) x0 x1 x2 x3 x4 (ix2 p q) = pre (aggR x0 x1) x0 x2 x4 x3 p q := by
  rw [val_main_v30_apply, val_main_v27_apply, val_main_v24_apply, val_main_v29_apply, val_main_v26_apply,
    val_main_v25_apply, mean1_eq, bidx26, ← pre_bias_first, Ideal.addf_def, Ideal.addf_def]
  generalize aggR x0 x1 = M
  simp only [val_main_v23_apply, val_main_v28_apply, lidx24, ridx24, lidx29, ridx29]

/-- The f32 zero word a row sum starts from is the number zero. -/
theorem zero_init (s : EReal) : Ideal.ofBits .f32 0x00000000#32 + s = s := by
  rw [Ideal.ofBits_zero_f32, zero_add]

/-- One squared entry of row `p`, at the index the row sum reads it. -/
theorem sq1 (p : Fin 50000) (q k : Fin 256) :
    val_main_call0_v0 (F := Ideal) x0 x1 x2 x3 x4 (idx_main_call0_v1 (idx_main_call0_v2 (idx_main_v34 (ix2 p q))) k)
      = pre (aggR x0 x1) x0 x2 x4 x3 p k * pre (aggR x0 x1) x0 x2 x4 x3 p k := by
  rw [nidx1, val_main_call0_v0_apply, lin1, Ideal.mulf_def]

/-- The divisor of row `p`: the larger of its Euclidean length and the floor. -/
theorem nrm1 (p : Fin 50000) (q : Fin 256) :
    val_main_v34 (F := Ideal) x0 x1 x2 x3 x4 (ix2 p q)
      = max (Ideal.sqrt (∑ j : Fin 256, pre (aggR x0 x1) x0 x2 x4 x3 p j * pre (aggR x0 x1) x0 x2 x4 x3 p j)) floorLen := by
  rw [val_main_v34_apply, val_main_v33_apply, val_main_v31_apply, val_main_call0_v2_apply, val_main_call0_v1_apply,
    val_main_v32_apply, val_main_cst_4_apply, val_main_call0_cst_apply, Ideal.maximumf_def, Ideal.hostUnary_sqrt_def,
    Ideal.ofBits_def, Ideal.ofBits_def, zero_init, Finset.sum_congr rfl fun k _ => sq1 x0 x1 x2 x3 x4 p q k]

theorem layer1_eq : val_main_v36 (F := Ideal) x0 x1 x2 x3 x4 = rectified (aggR x0 x1) x0 x2 x4 x3 := by
  funext i
  obtain ⟨p, q, rfl⟩ : ∃ (p : Fin 50000) (q : Fin 256), i = ix2 p q := ⟨i 0, i 1, eq_ix2 i⟩
  rw [rectified_ix2, val_main_v36_apply, val_main_v35_apply, nrm1, lin1, val_main_call1_v0_apply,
    val_main_call1_cst_apply, Ideal.maximumf_def, Ideal.hostDivf_def, Ideal.ofBits_def]
  unfold unitRow
  rfl

end Layer1

/-! ### Layer 2: the same reading over the first layer's output, with no clamp at the end -/

section Layer2

variable (x0 : FVec Ideal S50000x256 .f32) (x1 : IVec S2x800000 32) (x2 : FVec Ideal S256x256 .f32)
  (x3 : FVec Ideal S256 .f32) (x4 x5 : FVec Ideal S256x256 .f32) (x6 : FVec Ideal S256 .f32)
  (x7 : FVec Ideal S256x256 .f32)

theorem lidx57 (p : Fin 50000) (q k : Fin 256) : lidx_main_v57 (ix2 p q) k = ix2 p k :=
  funext fun a => Fin.ext (by match a with | ⟨0, _⟩ => rfl | ⟨1, _⟩ => rfl)

theorem ridx57 (p : Fin 50000) (q k : Fin 256) : idx_main_v56 (ridx_main_v57 (ix2 p q) k) = ix2 q k :=
  funext fun a => Fin.ext (by match a with | ⟨0, _⟩ => rfl | ⟨1, _⟩ => rfl)

theorem lidx62 (p : Fin 50000) (q k : Fin 256) : lidx_main_v62 (ix2 p q) k = ix2 p k :=
  funext fun a => Fin.ext (by match a with | ⟨0, _⟩ => rfl | ⟨1, _⟩ => rfl)

theorem ridx62 (p : Fin 50000) (q k : Fin 256) : idx_main_v61 (ridx_main_v62 (ix2 p q) k) = ix2 q k :=
  funext fun a => Fin.ext (by match a with | ⟨0, _⟩ => rfl | ⟨1, _⟩ => rfl)

theorem bidx59 (p : Fin 50000) (q : Fin 256) : idx_main_v58 (idx_main_v59 (ix2 p q)) = ix1 q :=
  funext fun a => Fin.ext (by match a with | ⟨0, _⟩ => rfl)

theorem nidx2 (p : Fin 50000) (q k : Fin 256) :
    idx_main_call2_v1 (idx_main_call2_v2 (idx_main_v67 (ix2 p q))) k = ix2 p k :=
  funext fun a => Fin.ext (by match a with | ⟨0, _⟩ => rfl | ⟨1, _⟩ => rfl)

/-- The linear part of layer 2 at node `p`, channel `q`, over the first layer's output. -/
theorem lin2 (p : Fin 50000) (q : Fin 256) :
    val_main_v63 (F := Ideal) x0 x1 x2 x3 x4 x5 x6 x7 (ix2 p q)
      = pre (aggR (val_main_v36 (F := Ideal) x0 x1 x2 x3 x4) x1) (val_main_v36 (F := Ideal) x0 x1 x2 x3 x4) x5 x7 x6 p q := by
  rw [val_main_v63_apply, val_main_v60_apply, val_main_v57_apply, val_main_v62_apply, val_main_v59_apply,
    val_main_v58_apply, mean2_eq, bidx59, ← pre_bias_first, Ideal.addf_def, Ideal.addf_def]
  generalize aggR (val_main_v36 (F := Ideal) x0 x1 x2 x3 x4) x1 = M
  generalize val_main_v36 (F := Ideal) x0 x1 x2 x3 x4 = H
  simp only [val_main_v56_apply, val_main_v61_apply, lidx57, ridx57, lidx62, ridx62]

/-- One squared entry of row `p`, at the index the row sum reads it. -/
theorem sq2 (p : Fin 50000) (q k : Fin 256) :
    val_main_call2_v0 (F := Ideal) x0 x1 x2 x3 x4 x5 x6 x7 (idx_main_call2_v1 (idx_main_call2_v2 (idx_main_v67 (ix2 p q))) k)
      = pre (aggR (val_main_v36 (F := Ideal) x0 x1 x2 x3 x4) x1) (val_main_v36 (F := Ideal) x0 x1 x2 x3 x4) x5 x7 x6 p k
        * pre (aggR (val_main_v36 (F := Ideal) x0 x1 x2 x3 x4) x1) (val_main_v36 (F := Ideal) x0 x1 x2 x3 x4) x5 x7 x6 p k := by
  rw [nidx2, val_main_call2_v0_apply, lin2, Ideal.mulf_def]

/-- The divisor of row `p`: the larger of its Euclidean length and the floor. -/
theorem nrm2 (p : Fin 50000) (q : Fin 256) :
    val_main_v67 (F := Ideal) x0 x1 x2 x3 x4 x5 x6 x7 (ix2 p q)
      = max (Ideal.sqrt (∑ j : Fin 256,
          pre (aggR (val_main_v36 (F := Ideal) x0 x1 x2 x3 x4) x1) (val_main_v36 (F := Ideal) x0 x1 x2 x3 x4) x5 x7 x6 p j
          * pre (aggR (val_main_v36 (F := Ideal) x0 x1 x2 x3 x4) x1) (val_main_v36 (F := Ideal) x0 x1 x2 x3 x4) x5 x7 x6 p j))
          floorLen := by
  rw [val_main_v67_apply, val_main_v66_apply, val_main_v64_apply, val_main_call2_v2_apply, val_main_call2_v1_apply,
    val_main_v65_apply, val_main_cst_11_apply, val_main_call2_cst_apply, Ideal.maximumf_def, Ideal.hostUnary_sqrt_def,
    Ideal.ofBits_def, Ideal.ofBits_def, zero_init, Finset.sum_congr rfl fun k _ => sq2 x0 x1 x2 x3 x4 x5 x6 x7 p q k]

/-- Layer 2 over the first layer's output, still named by the reference's own term. -/
theorem layer2_eq :
    val_main_v68 (F := Ideal) x0 x1 x2 x3 x4 x5 x6 x7
      = normed (aggR (val_main_v36 (F := Ideal) x0 x1 x2 x3 x4) x1) (val_main_v36 (F := Ideal) x0 x1 x2 x3 x4) x5 x7 x6 := by
  funext i
  obtain ⟨p, q, rfl⟩ : ∃ (p : Fin 50000) (q : Fin 256), i = ix2 p q := ⟨i 0, i 1, eq_ix2 i⟩
  rw [normed_ix2, val_main_v68_apply, nrm2, lin2, Ideal.hostDivf_def]
  unfold unitRow
  rfl

end Layer2

/-- The reference's result is the specification's two-layer convolution of the inputs: the first layer's unit rows
    clamped below at zero, then the second layer's unit rows over them, each layer fed the neighbour mean of its input. -/
theorem result_eq (x0 : FVec Ideal S50000x256 .f32) (x1 : IVec S2x800000 32) (x2 : FVec Ideal S256x256 .f32)
    (x3 : FVec Ideal S256 .f32) (x4 x5 : FVec Ideal S256x256 .f32) (x6 : FVec Ideal S256 .f32)
    (x7 : FVec Ideal S256x256 .f32) :
    val_main_v68 (F := Ideal) x0 x1 x2 x3 x4 x5 x6 x7
      = normed (aggR (rectified (aggR x0 x1) x0 x2 x4 x3) x1) (rectified (aggR x0 x1) x0 x2 x4 x3) x5 x7 x6 := by
  rw [layer2_eq, layer1_eq]

end Cert.ReferenceIdeal.RefValue

end
-- ==== Proof.lean ====
/-
  A two-layer graph convolution (mean aggregation over incoming edges, a linear map of the neighbours' mean and of the
  node's own features plus a bias, rows scaled to unit length with a floor on the length, a clamp at zero between the
  layers) computed by two tiled launches with host-side gathers and scatter-adds around them, against the same network
  written with whole-array operations.

  On the extended reals both programs compute, per layer, row p of
      z(p, q) = ∑ₖ mean(p, k) · Wl(q, k) + ∑ₖ x(p, k) · Wr(q, k) + b(q)
  divided by max(√(∑ⱼ z(p, j)²), floor): a change of float format is the identity, a product into a zero accumulator and
  a lane reduction are plain sums, the host's and the launches' division, square root and maximum are the same functions,
  and the floor is the same word on both sides. The programs differ in the order of the three summands (the bias last
  against the bias second), which commutativity and associativity of addition absorb without asking anything to be finite,
  in the tiling (25 row blocks whose rows depend only on the same rows of the inputs, so the blocks assemble to the
  whole-array function), and in where the weights are transposed. The neighbours' mean — gather, scatter-add, division by
  the clamped count — is the same chain of host operations of the same operands on both sides and is carried unopened.
  No operation was rewritten when the kernel program was idealized, so that claim is trivial.
-/
import proofs.«120263_j46505905881800_1_alg».proof.Defs
import proofs.«120263_j46505905881800_1_alg».proof.Proof.Gen.Kernel
import proofs.«120263_j46505905881800_1_alg».proof.Proof.Gen.Kernel.Skeleton
import proofs.«120263_j46505905881800_1_alg».proof.Proof.Gen.Kernel.Launch
import proofs.«120263_j46505905881800_1_alg».proof.Proof.Gen.Kernel.Points
import proofs.«120263_j46505905881800_1_alg».proof.Proof.Gen.Kernel.Frame
import proofs.«120263_j46505905881800_1_alg».proof.Proof.Gen.KernelIdeal
import proofs.«120263_j46505905881800_1_alg».proof.Proof.Gen.KernelIdeal.Skeleton
import proofs.«120263_j46505905881800_1_alg».proof.Proof.Gen.KernelIdeal.Launch
import proofs.«120263_j46505905881800_1_alg».proof.Proof.Gen.KernelIdeal.Points
import proofs.«120263_j46505905881800_1_alg».proof.Proof.Gen.KernelIdeal.Frame
import proofs.«120263_j46505905881800_1_alg».proof.Proof.Gen.ReferenceIdeal
import proofs.«120263_j46505905881800_1_alg».proof.Proof.Gen.Pre_finite_inputs
import proofs.«120263_j46505905881800_1_alg».proof.Proof.Gen.ReferenceIdeal.Run
import proofs.«120263_j46505905881800_1_alg».proof.Proof.Gen.ReferenceIdeal.Read
import proofs.«120263_j46505905881800_1_alg».proof.Proof.KernelValue
import proofs.«120263_j46505905881800_1_alg».proof.Proof.RefValue
import Idealize.ShloMosaic.Adequacy
import Idealize.ShloMosaic.Init

noncomputable section

namespace Cert.Proof

open Idealize.ShloMosaic Idealize.SL.Sem

/-- The neighbours' mean is one function of the features and the edge list in both programs: the same host operations
    with the same dimension numbers. -/
theorem agg_eq : Cert.ReferenceIdeal.RefValue.aggR = Cert.KernelIdeal.HostValue.aggK := by
  funext h e
  unfold Cert.ReferenceIdeal.RefValue.aggR Cert.KernelIdeal.HostValue.aggK Cert.KernelIdeal.HostValue.aggWith
    Cert.KernelIdeal.HostValue.srcK Cert.KernelIdeal.HostValue.dstK Cert.KernelIdeal.HostValue.cntK
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the two layers of their arguments, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v68_eq m' c).trans ?_
  refine (Cert.ReferenceIdeal.RefValue.result_eq _ _ _ _ _ _ _ _).trans ?_
  obtain ⟨h0, h1, h2, h3, h4, h5, h6, h7⟩ := hagree c
  rw [agg_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
